-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1600000 : Shape := ⟨1, ![1600000]⟩
abbrev S100000x128 : Shape := ⟨2, ![100000, 128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : IVec S1600000 32) (main_arg1 : IVec S1600000 32) (main_arg2 : FVec F S100000x128 .f32) (main_arg3 : FVec F S128x128 .f32) : IVec S_ 1 :=
  let main_v0 : FVec F S100000x128 .f32 := Host.absf main_arg2
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S1600000 : Shape := ⟨1, ![1600000]⟩
abbrev S100000x128 : Shape := ⟨2, ![100000, 128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S5000x128 : Shape := ⟨2, ![5000, 128]⟩
abbrev S5000x1 : Shape := ⟨2, ![5000, 1]⟩
abbrev S1600000x128 : Shape := ⟨2, ![1600000, 128]⟩

abbrev nBuf : Space → Nat
  | .hbm => 35
  | .vmem => 13
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000x128, .f32⟩
  | .hbm, ⟨3, _⟩ => ⟨S128x128, .f32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S128x128, .f32⟩
  | .hbm, ⟨19, _⟩ => ⟨S100000x128, .bf16⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .bf16⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .bf16⟩
  | .local _ .vmem, ⟨6, _⟩ => ⟨S5000x128, .bf16⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S5000x128, .f32⟩
  | .local _ .vmem, ⟨12, _⟩ => ⟨S5000x128, .f32⟩
  | _, _ => ⟨S1600000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  packedbf16_S5000x128_S5000x128_0_0 : (Rect.unit (s := S5000x128) ![0, 0] S5000x128.size inb_S5000x128_S5000x128_0_0).PackedRows (EltTy.packing .bf16)
  bcast_S_S100000x128 : S_.BroadcastsInDim S100000x128 (![] : Fin 0 → Fin S100000x128.rank)
  shapeCasts_S5000x128_S5000x128 : S5000x128.ShapeCasts S5000x128
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .bf16 = 32 ∨ (Rect.block (s := S100000x128) S5000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg2) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v20) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1600000 : Shape := ⟨1, ![1600000]⟩
abbrev S100000x128 : Shape := ⟨2, ![100000, 128]⟩
abbrev S128x128 : Shape := ⟨2, ![128, 128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩

abbrev nBuf : Space → Nat
  | .hbm => 37
  | .vmem => 0
  | .smem => 0
  | _ => 0

abbrev bufTy : (tb : Table) → Fin (tcTables nBuf tb) → BufTy
  | .hbm, ⟨0, _⟩ => ⟨S1600000, .i32⟩
  | .hbm, ⟨1, _⟩ => ⟨S1600000, .i32⟩
  | .hbm, ⟨2, _⟩ => ⟨S100000x128, .f32⟩
  | .hbm, ⟨3, _⟩ => ⟨S128x128, .f32⟩
  | .hbm, ⟨4, _⟩ => ⟨S_, .f32⟩
  | .hbm, ⟨5, _⟩ => ⟨S1600000, .f32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S_, .f32⟩
  | .hbm, ⟨12, _⟩ => ⟨S100000, .f32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S128x128, .f32⟩
  | .hbm, ⟨21, _⟩ => ⟨S100000x128, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S100000x128, .f32⟩
  | .hbm, ⟨36, _⟩ => ⟨S100000x128, .f32⟩
  | _, _ => ⟨S1600000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S_S100000x128 : S_.BroadcastsInDim S100000x128 (![] : Fin 0 → Fin S100000x128.rank)
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KernelRun.lean ====
/-
  The idealized kernel's run with every buffer named.

  The program is three stretches of host operations, the first tiled region (rows of h scaled by the degree
  normalisation and multiplied into the transposed weights), one more stretch of host operations (the row lookup along
  the edges' sources and the scatter-add along their destinations), and the second tiled region (rows scaled once
  more). Running the segments in order, every buffer that outlives a region ends at the contents obtained by folding
  the segments over the launch memory: a host stretch applies its operations, a region leaves each of its arrays at
  what its write-backs leave and every other buffer as it found it. This module states that fact for all such buffers
  at once; the frame claim keeps only the four arguments of it.
-/
import proofs.«128746_j8160437862602_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final memory every buffer that
    outlives the regions holds the fold of the segments over the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The result array after the run: what the second region's write-backs leave of it. -/
theorem result_eq (c : Dev nD) (r : PUnit × MemSt nD τ sig (Elt F))
    (h : ∀ c : Dev nD, ∀ b ∈ Pipeline.ucRefs τ sig, r.2.mem (((c : Thread nD τ)).1, b) = W6 m ρ c b) :
    r.2.mem ((c.tc : Thread nD τ).loc main_v21) = (dat1 (V5 m ρ) c).arrAt 2 cfg1.N :=
  (h c _ (mem_uc main_v21 (by decide))).trans (W6_arr m ρ c 2)

/-- The four arguments after the run: as launched. -/
theorem args_eq (c : Dev nD) (r : PUnit × MemSt nD τ sig (Elt F))
    (h : ∀ c : Dev nD, ∀ b ∈ Pipeline.ucRefs τ sig, r.2.mem (((c : Thread nD τ)).1, b) = W6 m ρ c b) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨(h c _ (mem_uc main_arg0 (by decide))).trans (W6_main_arg0 m ρ c),
   (h c _ (mem_uc main_arg1 (by decide))).trans (W6_main_arg1 m ρ c),
   (h c _ (mem_uc main_arg2 (by decide))).trans (W6_main_arg2 m ρ c),
   (h c _ (mem_uc main_arg3 (by decide))).trans (W6_main_arg3 m ρ c)⟩

end Cert.KernelIdeal.Whole

end
-- ==== Proof.LibSplit.lean ====
/-
  Small facts on the extended reals, stated for any extents.

  * A sum over K = a + b + c consecutive indices is the sum over the first a, plus the sum over the next b, plus the
    sum over the last c.  Only associativity of addition is used, so it holds with infinite terms too.
  * Multiplying by the reciprocal 1 / d of a divisor d ≠ 0 is dividing by d, for every extended real numerator:
    off zero the quotient x / d is x · d⁻¹, and 1 / d is 1 · d⁻¹ = d⁻¹.
  * The larger of anything and 1 is not zero.
  * The product of an M×K by a K×N matrix, accumulated into a zero splat or not, has at entry (r, c) the sum over k of
    X(r,k) · W(k,c).
-/
import Idealize.ShloMosaic.Lib.StackMember
import Idealize.ShloMosaic.Lib.KernelVsHost
import Idealize.ShloMosaic.Lib.ValueIdx
import Idealize.ShloMosaic.PureOps.Ideal.Laws

noncomputable section

namespace Cert.Bridge.Split

open Idealize.ShloMosaic Idealize.ShloMosaic.ValueIdx
open scoped BigOperators

/-- A sum over a + b + c indices, taken in three consecutive runs. -/
theorem sum_three {M : Type*} [AddCommMonoid M] {a b c K : ℕ} (hK : a + b + c = K) (f : Fin K → M) :
    ∑ j : Fin K, f j
      = (∑ j : Fin a, f ⟨j.val, by omega⟩ + ∑ j : Fin b, f ⟨a + j.val, by omega⟩)
        + ∑ j : Fin c, f ⟨a + b + j.val, by omega⟩ := by
  subst hK
  rw [Fin.sum_univ_add, Fin.sum_univ_add]
  rfl

/-- The float word of 1.0 reads the real number one. -/
theorem ofBits_one_f32 : Ideal.ofBits .f32 0x3F800000#32 = 1 := by
  simp [Ideal.ofBits, Ideal.ieee, -EReal.coe_mul]; norm_num

/-- Times the reciprocal of a nonzero divisor is the quotient by it, whatever the numerator. -/
theorem mul_one_div {one d : EReal} (h1 : one = 1) (hd : d ≠ 0) (s : EReal) :
    s * Ideal.div one d = Ideal.div s d := by
  subst h1
  unfold Ideal.div
  rw [if_neg hd, if_neg hd, one_mul]

/-- The larger of anything and one is at least one, so it is not zero. -/
theorem max_one_ne_zero {one : EReal} (h1 : one = 1) (x : EReal) : max x one ≠ 0 := by
  subst h1
  exact ne_of_gt (lt_of_lt_of_le zero_lt_one (le_max_right x 1))

variable {M K N : ℕ}

/-- A kernel's product into the zero splat, with the plain contraction, at entry (r, c). -/
theorem matmul_zero_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    matmul d none X W (constant ⟨2, ![M, N]⟩ .f32 0x00000000#32) (ix2 r c) = ∑ k : Fin K, X (ix2 r k) * W (ix2 k c) := by
  subst hd
  rw [matmul_zero_eq_dotGeneral]
  exact StackMember.dotGeneral_plain_apply none X W r c

/-- A host's product with the plain contraction, at entry (r, c). -/
theorem dotGeneral_plain_apply {φ₁ φ₂ : FTy} (d : DotDims ⟨2, ![M, K]⟩ ⟨2, ![K, N]⟩ ⟨2, ![M, N]⟩)
    (hd : d = DotDims.plain M K N) (X : FVec Ideal ⟨2, ![M, K]⟩ φ₁) (W : FVec Ideal ⟨2, ![K, N]⟩ φ₂)
    (r : Fin M) (c : Fin N) :
    Host.dotGeneral d none X W (ix2 r c) = ∑ k : Fin K, X (ix2 r k) * W (ix2 k c) := by
  subst hd
  exact StackMember.dotGeneral_plain_apply none X W r c

end Cert.Bridge.Split

end
-- ==== Proof.LibScaleProject.lean ====
/-
  A graph-convolution layer's two dense steps, read entry by entry on the extended reals.

  * Scaling then projecting. Given an M×K matrix H, a column n of M scale factors and a K×N matrix Wt, scale row r of H
    by n(r) and multiply into Wt: entry (r, c) is the sum over k of (H(r,k) · n(r)) · Wt(k,c).
  * Scaling. Given an M×N matrix A and such a column n, entry (r, c) is A(r,c) · n(r).

  Each entry depends on one row of the left operand and one scale factor only, so a band of rows of either result is the
  same function of that band of rows. The tiled spelling of the first step — the column broadcast along the rows, an
  entrywise product, a matrix product accumulated into a zero splat, with changes of float format in between, which are
  the identity on extended reals — is the first function; the accumulator contributes 0 + s = s. Nothing here
  distributes or cancels, so every statement holds with infinite entries too. Stated for any extents.
-/
import proofs.«128746_j8160437862602_2_alg».proof.Proof.LibSplit
import Idealize.ShloMosaic.Lib.ValueIdx
import Idealize.ShloMosaic.Lib.Pipeline.Value
import Idealize.ShloMosaic.PureOps.Ideal.Laws

noncomputable section

namespace Cert.Gcn

open Idealize.ShloMosaic Idealize.ShloMosaic.ValueIdx
open scoped BigOperators

variable {M K N : ℕ}

/-- Rows of H scaled by the column n, then multiplied into Wt. -/
def scaledProd (H : (⟨2, ![M, K]⟩ : Shape).Idx → EReal) (n : (⟨2, ![M, 1]⟩ : Shape).Idx → EReal)
    (Wt : (⟨2, ![K, N]⟩ : Shape).Idx → EReal) : (⟨2, ![M, N]⟩ : Shape).Idx → EReal :=
  fun i => ∑ k : Fin K, (H (ix2 (i 0) k) * n (ix2 (i 0) (0 : Fin 1))) * Wt (ix2 k (i 1))

theorem scaledProd_apply (H : (⟨2, ![M, K]⟩ : Shape).Idx → EReal) (n : (⟨2, ![M, 1]⟩ : Shape).Idx → EReal)
    (Wt : (⟨2, ![K, N]⟩ : Shape).Idx → EReal) (r : Fin M) (c : Fin N) :
    scaledProd H n Wt (ix2 r c) = ∑ k : Fin K, (H (ix2 r k) * n (ix2 r (0 : Fin 1))) * Wt (ix2 k c) := rfl

/-- Rows of A scaled by the column n. -/
def rowScale (A : (⟨2, ![M, N]⟩ : Shape).Idx → EReal) (n : (⟨2, ![M, 1]⟩ : Shape).Idx → EReal) :
    (⟨2, ![M, N]⟩ : Shape).Idx → EReal :=
  fun i => A i * n (ix2 (i 0) (0 : Fin 1))

theorem rowScale_apply (A : (⟨2, ![M, N]⟩ : Shape).Idx → EReal) (n : (⟨2, ![M, 1]⟩ : Shape).Idx → EReal)
    (r : Fin M) (c : Fin N) : rowScale A n (ix2 r c) = A (ix2 r c) * n (ix2 r (0 : Fin 1)) := rfl

/-- A column [a, 1] broadcast along the rows to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The tiled spelling of scaling then projecting: the column broadcast along the rows, the entrywise product, the matrix
    product with the plain contraction accumulated into a zero splat, a change of float format after each step. -/
theorem tiled_scaledProd (d : DotDims ⟨2, ![M, K]⟩ ⟨2, ![K, N]⟩ ⟨2, ![M, N]⟩) (hd : d = DotDims.plain M K N)
    (x0 : FVec Ideal ⟨2, ![M, K]⟩ .f32) (x1 : FVec Ideal ⟨2, ![M, 1]⟩ .f32) (x2 : FVec Ideal ⟨2, ![K, N]⟩ .f32)
    (hb : (⟨2, ![M, 1]⟩ : Shape).Broadcasts ⟨2, ![M, K]⟩)
    (h1 : FTy.bf16.bits < FTy.f32.bits) :
    (truncf .bf16 (matmul d none (truncf .bf16 (mulf x0 (broadcastTo ⟨2, ![M, K]⟩ x1 hb)) h1) (truncf .bf16 x2 h1)
        (constant ⟨2, ![M, N]⟩ .f32 0x00000000#32)) h1 : FVec Ideal ⟨2, ![M, N]⟩ .bf16)
      = scaledProd x0 x1 x2 := by
  funext i
  obtain ⟨r, c, rfl⟩ : ∃ (r : Fin M) (c : Fin N), i = ix2 r c := ⟨i 0, i 1, eq_ix2 i⟩
  rw [truncf_apply, Cert.Bridge.Split.matmul_zero_plain_apply d hd, scaledProd_apply]
  refine Finset.sum_congr rfl fun k _ => ?_
  rw [truncf_apply, truncf_apply, mulf_apply, broadcastTo_a1_ab_apply]

/-- The tiled spelling of scaling: the column broadcast along the rows and the entrywise product. -/
theorem tiled_rowScale (x0 : FVec Ideal ⟨2, ![M, N]⟩ .f32) (x1 : FVec Ideal ⟨2, ![M, 1]⟩ .f32)
    (hb : (⟨2, ![M, 1]⟩ : Shape).Broadcasts ⟨2, ![M, N]⟩) :
    mulf x0 (broadcastTo ⟨2, ![M, N]⟩ x1 hb) = rowScale x0 x1 := by
  funext i
  obtain ⟨r, c, rfl⟩ : ∃ (r : Fin M) (c : Fin N), i = ix2 r c := ⟨i 0, i 1, eq_ix2 i⟩
  rw [mulf_apply, broadcastTo_a1_ab_apply, rowScale_apply]

end Cert.Gcn

end
-- ==== Proof.Payload.lean ====
/-
  What each tiled body stores, as one function of the blocks it loads.

  The first body loads a band of 5000 rows of h, the matching 5000 scale factors as a column, and the whole 128×128
  transposed weight matrix, and stores the band's rows scaled and multiplied into the weights. The second body loads a
  band of 5000 rows of the aggregated messages and the matching scale factors, and stores the rows scaled. Both are
  the layer's two dense steps of the band, read on the extended reals, where a change of float format is the identity.
-/
import proofs.«128746_j8160437862602_2_alg».proof.Proof.Gen.KernelIdeal.Skeleton
import proofs.«128746_j8160437862602_2_alg».proof.Proof.LibScaleProject

noncomputable section

namespace Cert.KernelIdeal.Blocks

open Cert.KernelIdeal Cert.KernelIdeal.Gen Cert.Gcn
open Idealize.ShloMosaic Idealize.ShloMosaic.ValueIdx

/-- The first body's matrix product contracts the columns of the left operand against the rows of the right. -/
theorem dot_plain : dot_S5000x128_S128x128_S5000x128_1_0_0_1_n_n = DotDims.plain 5000 128 128 := rfl

/-- The first body stores the band's rows scaled by their factors and multiplied into the weights. -/
theorem pay0_eq (x0 : Vec Ideal S5000x128 .f32) (x1 : Vec Ideal S5000x1 .f32) (x2 : Vec Ideal S128x128 .f32) :
    k0_pay1 (F := Ideal) x0 x1 x2 = scaledProd x0 x1 x2 := by
  unfold k0_pay1
  dsimp only
  rw [shapeCast_self, shapeCast_self]
  exact tiled_scaledProd _ dot_plain x0 x1 x2 _ _

/-- The second body stores the band's rows scaled by their factors. -/
theorem pay1_eq (x0 : Vec Ideal S5000x128 .f32) (x2 : Vec Ideal S5000x1 .f32) :
    k1_pay1 (F := Ideal) x0 x2 = rowScale x0 x2 := by
  unfold k1_pay1
  dsimp only
  rw [shapeCast_self, shapeCast_self]
  exact tiled_rowScale x0 x2 _

end Cert.KernelIdeal.Blocks

end
-- ==== Proof.Region0.lean ====
/-
  The first tiled region's output array after the region has run, as one function of the arrays it found.

  The region walks 20 grid points. Point t loads rows 5000·t … 5000·t + 4999 of h (all 128 columns), the same rows of
  the column of scale factors, and the whole transposed weight matrix, and writes back the same rows of the output. What
  it writes is those rows scaled and multiplied into the weights, and since an entry of that product depends only on its
  own row of h and its own scale factor, the band written at point t is the band of rows 5000·t … of the product of the
  whole arrays. The 20 bands tile the 100000 rows, so after the last point the output array is that product.
-/
import proofs.«128746_j8160437862602_2_alg».proof.Proof.Gen.KernelIdeal.Frame
import proofs.«128746_j8160437862602_2_alg».proof.Proof.Payload

set_option maxRecDepth 16384

noncomputable section

namespace Cert.KernelIdeal.Region0

open Cert.KernelIdeal Cert.KernelIdeal.Gen Cert.KernelIdeal.Blocks Cert.Gcn
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the bands of h, of the scale factors and of the output all start at block
    row t, in block column 0; the weights are always block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the band at point t, as a row of the whole array. -/
def rowAt (t : Fin cfg0.N) (p : Fin 5000) : Fin 100000 :=
  ⟨t.val * 5000 + p.val, by have h : t.val < grid0.N := t.isLt; rw [N_0] at h; have := p.isLt; omega⟩

/-- What point t writes back is the band of rows 5000·t … of the product of the whole arrays. -/
theorem flushed_eq (c : Dev nD) (t : Fin cfg0.N) :
    (dat0 V c).flushed 3 t = ((cfg0.win 3).blk t).view.read (Elt Ideal)
      (scaledProd (M := 100000) (K := 128) (N := 128) (V c main_arg2) (V c main_v7) (V c main_v8)) := by
  show (cfg0.win 3).cut (grid0.coords t) ((dat0 V c).after 3 t) = _
  rw [after0_3]
  unfold out0_3
  rw [View.canon_unit_zero hz]
  simp only [View.ld_unit_zero (S := S5000x128) hz, View.ld_unit_zero (S := S5000x1) hz, View.ld_unit_zero (S := S128x128) hz]
  rw [pay0_eq]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  have h3 : ((cfg0.win 3).blk t).view.emb (ix2 p q) = ix2 (rowAt t p) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  have h0 : ∀ k : Fin 128, ((cfg0.win 0).blk t).view.emb (ix2 p k) = ix2 (rowAt t p) k := fun k => by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ((cfg0.win 1).blk t).view.emb (ix2 p (0 : Fin 1)) = ix2 (rowAt t p) (0 : Fin 1) := by
    funext a; apply Fin.ext
    match a with
    | ⟨0, _⟩ => show win0_1.index t (0 : Fin 2) * 5000 + 1 * p.val = t.val * 5000 + p.val; omega
    | ⟨1, _⟩ => show win0_1.index t (1 : Fin 2) * 1 + 1 * 0 = 0; omega
  have h2 : ∀ k : Fin 128, ((cfg0.win 2).blk t).view.emb (ix2 k q) = ix2 k q := fun k => by
    funext a; apply Fin.ext
    match a with
    | ⟨0, _⟩ => show win0_2.index t (0 : Fin 2) * 128 + 1 * k.val = k.val; omega
    | ⟨1, _⟩ => show win0_2.index t (1 : Fin 2) * 128 + 1 * q.val = q.val; omega
  show scaledProd (M := 5000) (K := 128) (N := 128) (iblk0 V c 0 t) (iblk0 V c 1 t) (iblk0 V c 2 t) (ix2 p q)
    = scaledProd (M := 100000) (K := 128) (N := 128) (V c main_arg2) (V c main_v7) (V c main_v8) (((cfg0.win 3).blk t).view.emb (ix2 p q))
  rw [h3, scaledProd_apply, scaledProd_apply]
  refine Finset.sum_congr rfl fun k _ => ?_
  have a0 : iblk0 V c 0 t (ix2 p k) = V c main_arg2 (ix2 (rowAt t p) k) := congrArg (V c main_arg2) (h0 k)
  have a1 : iblk0 V c 1 t (ix2 p (0 : Fin 1)) = V c main_v7 (ix2 (rowAt t p) (0 : Fin 1)) := congrArg (V c main_v7) h1
  have a2 : iblk0 V c 2 t (ix2 k q) = V c main_v8 (ix2 k q) := congrArg (V c main_v8) (h2 k)
  rw [a0, a1, a2]

/-- An index of the output array is in point t's band iff each coordinate is in the band's range on its axis. -/
theorem mem_blk (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v9).slice (win0_3.rect t)).set ↔ _
  rw [View.set_slice_whole, Rect.mem_set_unit]
  exact Iff.rfl

/-- Every index of the output array is in some point's band: row r is in the band of point r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : grid0.N = 20 := N_0
  let t : Fin cfg0.N := ⟨(i 0).val / 5000, by show (i 0).val / 5000 < grid0.N; omega⟩
  refine ⟨t, flush0_3 t, ?_⟩
  obtain ⟨-, -, -, -, -, -, e30, e31⟩ := idx_facts t
  have ht : t.val = (i 0).val / 5000 := rfl
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region: the rows of h scaled by their factors and multiplied into the weights. -/
theorem final (c : Dev nD) :
    (dat0 V c).arrAt 3 cfg0.N
      = scaledProd (M := 100000) (K := 128) (N := 128) (V c main_arg2) (V c main_v7) (V c main_v8) :=
  (dat0 V c).arrAt_eq_of_cover 3 _ (fun t _ => flushed_eq V c t) cover

end Cert.KernelIdeal.Region0

end
-- ==== Proof.Region1.lean ====
/-
  The second tiled region's output array after the region has run, as one function of the arrays it found.

  The region walks 20 grid points. Point t loads rows 5000·t … 5000·t + 4999 of the aggregated messages and the same
  rows of the column of scale factors, and writes back the same rows of the output: the loaded rows, each scaled by its
  factor. An entry of the scaled array depends only on its own entry of the messages and its own row's factor, so the
  band written at point t is the band of the whole arrays' scaled array. The 20 bands tile the 100000 rows, so after
  the last point the output array is the aggregated messages with every row scaled.
-/
import proofs.«128746_j8160437862602_2_alg».proof.Proof.Gen.KernelIdeal.Frame
import proofs.«128746_j8160437862602_2_alg».proof.Proof.Payload

set_option maxRecDepth 16384

noncomputable section

namespace Cert.KernelIdeal.Region1

open Cert.KernelIdeal Cert.KernelIdeal.Gen Cert.KernelIdeal.Blocks Cert.Gcn
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: at point t the bands of the messages, of the scale factors and of the output all
    start at block row t, in block column 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Row p of the band at point t, as a row of the whole array. -/
def rowAt (t : Fin cfg1.N) (p : Fin 5000) : Fin 100000 :=
  ⟨t.val * 5000 + p.val, by have h : t.val < grid1.N := t.isLt; rw [N_1] at h; have := p.isLt; omega⟩

/-- What point t writes back is the band of rows 5000·t … of the whole messages array with its rows scaled. -/
theorem flushed_eq (c : Dev nD) (t : Fin cfg1.N) :
    (dat1 V c).flushed 2 t = ((cfg1.win 2).blk t).view.read (Elt Ideal)
      (rowScale (M := 100000) (N := 128) (V c main_v20) (V c main_v7)) := by
  show (cfg1.win 2).cut (grid1.coords t) ((dat1 V c).after 2 t) = _
  rw [after1_2]
  unfold out1_2
  rw [View.canon_unit_zero hz]
  simp only [View.ld_unit_zero (S := S5000x128) hz, View.ld_unit_zero (S := S5000x1) hz]
  rw [pay1_eq]
  obtain ⟨e00, e01, e10, e11, e20, e21⟩ := idx_facts t
  funext j
  obtain ⟨p, q, rfl⟩ : ∃ (p : Fin 5000) (q : Fin 128), j = ix2 p q := ⟨j 0, j 1, eq_ix2 j⟩
  have h2 : ((cfg1.win 2).blk t).view.emb (ix2 p q) = ix2 (rowAt t p) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  have h0 : ((cfg1.win 0).blk t).view.emb (ix2 p q) = ix2 (rowAt t p) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : ((cfg1.win 1).blk t).view.emb (ix2 p (0 : Fin 1)) = ix2 (rowAt t p) (0 : Fin 1) := by
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  show rowScale (M := 5000) (N := 128) (iblk1 V c 0 t) (iblk1 V c 1 t) (ix2 p q)
    = rowScale (M := 100000) (N := 128) (V c main_v20) (V c main_v7) (((cfg1.win 2).blk t).view.emb (ix2 p q))
  rw [h2, rowScale_apply, rowScale_apply]
  have a0 : iblk1 V c 0 t (ix2 p q) = V c main_v20 (ix2 (rowAt t p) q) := congrArg (V c main_v20) h0
  have a1 : iblk1 V c 1 t (ix2 p (0 : Fin 1)) = V c main_v7 (ix2 (rowAt t p) (0 : Fin 1)) := congrArg (V c main_v7) h1
  rw [a0, a1]

/-- An index of the output array is in point t's band iff each coordinate is in the band's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v21).slice (win1_2.rect t)).set ↔ _
  rw [View.set_slice_whole, Rect.mem_set_unit]
  exact Iff.rfl

/-- Every index of the output array is in some point's band: row r is in the band of point r / 5000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  refine ⟨t, flush1_2 t, ?_⟩
  obtain ⟨-, -, -, -, e20, e21⟩ := idx_facts t
  have ht : t.val = (i 0).val / 5000 := rfl
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array after the region: the aggregated messages with every row scaled by its factor. -/
theorem final (c : Dev nD) :
    (dat1 V c).arrAt 2 cfg1.N = rowScale (M := 100000) (N := 128) (V c main_v20) (V c main_v7) :=
  (dat1 V c).arrAt_eq_of_cover 2 _ (fun t _ => flushed_eq V c t) cover

end Cert.KernelIdeal.Region1

end
-- ==== Proof.RefValue.lean ====
/-
  The reference program's result in the layer's two dense steps.

  The reference scales the rows of h by the column of degree factors, multiplies into the transposed weights with one
  whole-matrix product, looks the product's rows up along the edges' sources, adds them up along the edges'
  destinations, and scales the rows of the sum by the same column. Its product stage is, entry by entry, the sum over k
  of (h(r,k) · n(r)) · Wt(k,c), and its last stage is the aggregated array's entry times n(r): the two functions the
  tiled kernel's regions compute band by band. The lookup and the scatter-add in between are left as they stand.
-/
import proofs.«128746_j8160437862602_2_alg».proof.Proof.Gen.ReferenceIdeal.Read
import proofs.«128746_j8160437862602_2_alg».proof.Proof.LibScaleProject

noncomputable section

namespace Cert.ReferenceIdeal.RefValue

open Cert.ReferenceIdeal Cert.ReferenceIdeal.Read Cert.Gcn
open Idealize.ShloMosaic Idealize.ShloMosaic.ValueIdx
open scoped BigOperators

/-- The product stage: rows of h scaled by the degree factors, multiplied into the transposed weights. -/
theorem prod_eq (x0 : (⟨S1600000, .i32⟩ : BufTy).Contents (Elt Ideal)) (x2 : (⟨S100000x128, .f32⟩ : BufTy).Contents (Elt Ideal))
    (x3 : (⟨S128x128, .f32⟩ : BufTy).Contents (Elt Ideal)) :
    val_main_v11 (F := Ideal) x0 x2 x3
      = scaledProd (M := 100000) (K := 128) (N := 128) x2 (val_main_v7 (F := Ideal) x0) (val_main_v10 (F := Ideal) x3) := by
  funext i
  obtain ⟨r, c, rfl⟩ : ∃ (r : Fin 100000) (c : Fin 128), i = ix2 r c := ⟨i 0, i 1, eq_ix2 i⟩
  rw [val_main_v11_apply, scaledProd_apply]
  refine Finset.sum_congr rfl fun k _ => ?_
  have el : lidx_main_v11 (ix2 r c) k = ix2 r k :=
    funext fun a => Fin.ext (by match a with | ⟨0, _⟩ => rfl | ⟨1, _⟩ => rfl)
  have er : ridx_main_v11 (ix2 r c) k = ix2 k c :=
    funext fun a => Fin.ext (by match a with | ⟨0, _⟩ => rfl | ⟨1, _⟩ => rfl)
  have e8 : idx_main_v8 (ix2 r k) = ix2 r (0 : Fin 1) :=
    funext fun a => Fin.ext (by match a with | ⟨0, _⟩ => rfl | ⟨1, _⟩ => rfl)
  rw [el, er, val_main_v9_apply, val_main_v8_apply, e8]
  rfl

/-- The last stage: rows of the aggregated array scaled by the degree factors. -/
theorem result_eq (x0 x1 : (⟨S1600000, .i32⟩ : BufTy).Contents (Elt Ideal)) (x2 : (⟨S100000x128, .f32⟩ : BufTy).Contents (Elt Ideal))
    (x3 : (⟨S128x128, .f32⟩ : BufTy).Contents (Elt Ideal)) :
    val_main_v23 (F := Ideal) x0 x1 x2 x3
      = rowScale (M := 100000) (N := 128) (val_main_v21 (F := Ideal) x0 x1 x2 x3) (val_main_v7 (F := Ideal) x0) := by
  funext i
  obtain ⟨r, c, rfl⟩ : ∃ (r : Fin 100000) (c : Fin 128), i = ix2 r c := ⟨i 0, i 1, eq_ix2 i⟩
  have e22 : idx_main_v22 (ix2 r c) = ix2 r (0 : Fin 1) :=
    funext fun a => Fin.ext (by match a with | ⟨0, _⟩ => rfl | ⟨1, _⟩ => rfl)
  rw [val_main_v23_apply, val_main_v22_apply, e22, rowScale_apply]
  rfl

/-- The rows of X looked up along the edges' sources (a negative source counted from the end, as the reference spells
    it) and added up along the edges' destinations into a zero array. -/
def aggregate (X : (⟨S100000x128, .f32⟩ : BufTy).Contents (Elt Ideal)) (x0 x1 : (⟨S1600000, .i32⟩ : BufTy).Contents (Elt Ideal)) :
    (⟨S100000x128, .f32⟩ : BufTy).Contents (Elt Ideal) :=
  Host.scatterAdd (F := Ideal) (φ := .f32) scatter_S100000x128_S1600000x1_S1600000x128_1_0_0_1 (val_main_v19 (F := Ideal))
    (val_main_v20 (F := Ideal) x0)
    (Host.gather gather_S100000x128_S1600000x1_S1600000x128_1_0_n_n_0_1_1128 X (val_main_v17 (F := Ideal) x1))

/-- The reference's aggregated array is the aggregate of its product stage. -/
theorem v21_eq (x0 x1 : (⟨S1600000, .i32⟩ : BufTy).Contents (Elt Ideal)) (x2 : (⟨S100000x128, .f32⟩ : BufTy).Contents (Elt Ideal))
    (x3 : (⟨S128x128, .f32⟩ : BufTy).Contents (Elt Ideal)) :
    val_main_v21 (F := Ideal) x0 x1 x2 x3 = aggregate (val_main_v11 (F := Ideal) x0 x2 x3) x0 x1 := rfl

/-- The whole layer: scale the rows of h and project, aggregate along the edges, scale the rows again. -/
def layer (x0 x1 : (⟨S1600000, .i32⟩ : BufTy).Contents (Elt Ideal)) (x2 : (⟨S100000x128, .f32⟩ : BufTy).Contents (Elt Ideal))
    (x3 : (⟨S128x128, .f32⟩ : BufTy).Contents (Elt Ideal)) : (⟨S100000x128, .f32⟩ : BufTy).Contents (Elt Ideal) :=
  rowScale (M := 100000) (N := 128)
    (aggregate (scaledProd (M := 100000) (K := 128) (N := 128) x2 (val_main_v7 (F := Ideal) x0) (val_main_v10 (F := Ideal) x3)) x0 x1)
    (val_main_v7 (F := Ideal) x0)

/-- The reference's result is the layer. -/
theorem ref_layer (x0 x1 : (⟨S1600000, .i32⟩ : BufTy).Contents (Elt Ideal)) (x2 : (⟨S100000x128, .f32⟩ : BufTy).Contents (Elt Ideal))
    (x3 : (⟨S128x128, .f32⟩ : BufTy).Contents (Elt Ideal)) :
    val_main_v23 (F := Ideal) x0 x1 x2 x3 = layer x0 x1 x2 x3 := by
  rw [result_eq, v21_eq, prod_eq]
  rfl

end Cert.ReferenceIdeal.RefValue

end
-- ==== Proof.KernelValue.lean ====
/-
  The idealized kernel's result array as the layer of its four arguments.

  Before the first region the host computes, from the edges' destinations, each row's degree (a scatter-add of ones),
  clamps it below at one, raises it to the power −1/2 and lays the result out as a column; it also transposes the
  weights. The first region then leaves the rows of h scaled by that column and multiplied into the transposed weights.
  Between the regions the host looks that array's rows up along the edges' sources and adds them up along the edges'
  destinations; the lookup's change of float format is the identity on extended reals. The second region leaves the
  rows of that sum scaled by the same column, which no step in between has written. Each of these is the matching step
  of the layer as the reference spells it, on the same argument arrays.

  The host's part is the same composition of operations in both programs, whatever the float operations mean, so it is
  stated for any reading of the floats; only the change of format and the two regions' results are read on the
  extended reals.
-/
import proofs.«128746_j8160437862602_2_alg».proof.Proof.KernelRun
import proofs.«128746_j8160437862602_2_alg».proof.Proof.Region0
import proofs.«128746_j8160437862602_2_alg».proof.Proof.Region1
import proofs.«128746_j8160437862602_2_alg».proof.Proof.RefValue
import Idealize.ShloMosaic.Lib.StableHlo.Run

set_option maxRecDepth 16384

noncomputable section

namespace Cert.KernelIdeal.HostSide

open Cert.KernelIdeal Cert.KernelIdeal.Gen Cert.Gcn
open Idealize.ShloMosaic Idealize.ShloMosaic.TcCoe Idealize.ShloMosaic.StableHlo Idealize.SL.Sem
open Idealize.ShloMosaic.Pipeline (Dat Cfg Window)

section AnyFloats

variable {F : FTy → Type} [FloatOps F]
variable (m : (ℓ : Loc nD τ sig) → Buf (Elt F) ℓ) (ρ : Dev nD → PrngReg)

/-! ## What the first region finds -/

/-- The first region finds h as launched: no host operation before it writes an argument. -/
theorem V3_arg2 (c : Dev nD) : V3 m ρ c main_arg2 = m ((c : Thread nD τ).loc main_arg2) := by
  show StableHlo.after hostOps0_2 (StableHlo.after hostOps0_1 (StableHlo.after hostOps0 (W0 m ρ c))) (Proc.devRef .tc main_arg2) = _
  dsimp only [hostOps0, hostOps0_1, hostOps0_2]
  after_results

/-- The first region finds the edges' destinations as launched. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results

/-- The first region finds the edges' sources as launched. -/
theorem W3_arg1 (c : Dev nD) : W3 m ρ c (Proc.devRef .tc main_arg1) = m ((c : Thread nD τ).loc main_arg1) := by
  show StableHlo.after hostOps0_2 (StableHlo.after hostOps0_1 (StableHlo.after hostOps0 (W0 m ρ c))) (Proc.devRef .tc main_arg1) = _
  dsimp only [hostOps0, hostOps0_1, hostOps0_2]
  after_results

/-- The column of scale factors the first region finds: degree clamped below at one, to the power −1/2. -/
theorem V3_v7 (c : Dev nD) :
    V3 m ρ c main_v7 = Cert.ReferenceIdeal.Read.val_main_v7 (F := F) (m ((c : Thread nD τ).loc main_arg0)) := by
  show StableHlo.after hostOps0_2 (StableHlo.after hostOps0_1 (StableHlo.after hostOps0 (W0 m ρ c))) (Proc.devRef .tc main_v7) = _
  dsimp only [hostOps0, hostOps0_1, hostOps0_2]
  after_results
  rfl

/-- The weights the first region finds: the argument transposed. -/
theorem V3_v8 (c : Dev nD) :
    V3 m ρ c main_v8 = Cert.ReferenceIdeal.Read.val_main_v10 (F := F) (m ((c : Thread nD τ).loc main_arg3)) := by
  show StableHlo.after hostOps0_2 (StableHlo.after hostOps0_1 (StableHlo.after hostOps0 (W0 m ρ c))) (Proc.devRef .tc main_v8) = _
  dsimp only [hostOps0, hostOps0_1, hostOps0_2]
  after_results
  rfl

/-! ## What the first region leaves -/

/-- Its output array: what its write-backs leave. -/
theorem W4_v9 (c : Dev nD) : W4 m ρ c (Proc.devRef .tc main_v9) = (dat0 (V3 m ρ) c).arrAt 3 cfg0.N := W4_arr m ρ c 3

/-- The column of scale factors is an input of the region: left as found. -/
theorem W4_v7 (c : Dev nD) : W4 m ρ c (Proc.devRef .tc main_v7) = V3 m ρ c main_v7 :=
  (W4_arr m ρ c 1).trans (((dat0 (V3 m ρ) c).arrAt_in 1 rfl _).trans (A_eq0 (V3 m ρ) c 1))

/-- The edges' destinations are not among the region's arrays: left as found. -/
theorem W4_arg0 (c : Dev nD) : W4 m ρ c (Proc.devRef .tc main_arg0) = m ((c : Thread nD τ).loc main_arg0) :=
  (W4_of_ne m ρ c main_arg0 (by decide)).trans (W3_arg0 m ρ c)

/-- The edges' sources are not among the region's arrays: left as found. -/
theorem W4_arg1 (c : Dev nD) : W4 m ρ c (Proc.devRef .tc main_arg1) = m ((c : Thread nD τ).loc main_arg1) :=
  (W4_of_ne m ρ c main_arg1 (by decide)).trans (W3_arg1 m ρ c)

/-! ## The scale factors the second region finds -/

/-- The column of scale factors: no host operation between the regions writes it. -/
theorem V5_v7 (c : Dev nD) :
    V5 m ρ c main_v7 = Cert.ReferenceIdeal.Read.val_main_v7 (F := F) (m ((c : Thread nD τ).loc main_arg0)) := by
  show StableHlo.after hostOps1 (W4 m ρ c) (Proc.devRef .tc main_v7) = _
  dsimp only [hostOps1]
  after_results
  rw [W4_v7]
  exact V3_v7 m ρ c

end AnyFloats

section OnExtendedReals

variable (m : (ℓ : Loc nD τ sig) → Buf (Elt Ideal) ℓ) (ρ : Dev nD → PrngReg)

/-- A change of float format of a whole array is the identity on extended reals. -/
theorem extf_id {s : Shape} {φ ψ : FTy} (a : FVec Ideal s φ) (h : φ.bits < ψ.bits) : (extf ψ a h : FVec Ideal s ψ) = a :=
  funext fun i => Idealize.ShloMosaic.ValueIdx.extf_apply a h i

/-- The aggregated messages the second region finds: the first region's output looked up along the sources and added
    up along the destinations. -/
theorem V5_v20 (c : Dev nD) :
    V5 m ρ c main_v20 = Cert.ReferenceIdeal.RefValue.aggregate ((dat0 (V3 m ρ) c).arrAt 3 cfg0.N)
      (m ((c : Thread nD τ).loc main_arg0)) (m ((c : Thread nD τ).loc main_arg1)) := by
  show StableHlo.after hostOps1 (W4 m ρ c) (Proc.devRef .tc main_v20) = _
  dsimp only [hostOps1]
  after_results
  rw [W4_v9, W4_arg0, W4_arg1, extf_id]
  rfl

/-- What the second region's write-backs leave of the result array is the layer of the four arguments. -/
theorem result_layer (c : Dev nD) :
    (dat1 (V5 m ρ) c).arrAt 2 cfg1.N
      = Cert.ReferenceIdeal.RefValue.layer (m ((c : Thread nD τ).loc main_arg0)) (m ((c : Thread nD τ).loc main_arg1))
          (m ((c : Thread nD τ).loc main_arg2)) (m ((c : Thread nD τ).loc main_arg3)) := by
  rw [Cert.KernelIdeal.Region1.final (V5 m ρ) c, V5_v20, V5_v7, Cert.KernelIdeal.Region0.final (V3 m ρ) c, V3_arg2, V3_v7, V3_v8]
  rfl

end OnExtendedReals

end Cert.KernelIdeal.HostSide

end
-- ==== Proof.lean ====
/-
  A degree-normalised graph-convolution layer: a tiled kernel against its whole-array reference, on the extended reals.

  Both programs take the edges' destinations and sources, a 100000×128 feature matrix h and a 128×128 weight matrix W.
  Each row's degree is the number of edges arriving at it; n is the column of degrees clamped below at one and raised
  to the power −1/2. The layer is

      out(r, c) = n(r) · Σ over the edges e arriving at r of x(source e, c),   x(r, c) = Σ_k (h(r,k) · n(r)) · W(c,k).

  The reference computes x with one whole-matrix product and the last scaling with one whole-array product. The kernel
  computes both in bands of 5000 rows: one tiled region multiplies each band of h, scaled, into the transposed weights,
  accumulating into a zero splat and passing through a narrower float format on the way; the lookup and the scatter-add
  in between run on the host exactly as in the reference; a second tiled region scales each band of the aggregated
  array. On the extended reals a change of float format is the identity and a zero accumulator contributes 0 + s = s;
  every entry of x and of out depends on its own row only, so the 20 bands assemble the whole arrays. No step
  distributes a product over a sum or cancels, so the two results agree entry by entry for all inputs, infinite ones
  included, and the precondition is never used.

  The three frame claims are the generated frame certificates (the reference's is its generated run with the result
  dropped); the kernel's idealization rewrote no operation, so there is nothing to preserve.
-/
import proofs.«128746_j8160437862602_2_alg».proof.Defs
import proofs.«128746_j8160437862602_2_alg».proof.Proof.Gen.Kernel
import proofs.«128746_j8160437862602_2_alg».proof.Proof.Gen.Kernel.Skeleton
import proofs.«128746_j8160437862602_2_alg».proof.Proof.Gen.Kernel.Launch
import proofs.«128746_j8160437862602_2_alg».proof.Proof.Gen.Kernel.Points
import proofs.«128746_j8160437862602_2_alg».proof.Proof.Gen.Kernel.Frame
import proofs.«128746_j8160437862602_2_alg».proof.Proof.Gen.KernelIdeal
import proofs.«128746_j8160437862602_2_alg».proof.Proof.Gen.KernelIdeal.Skeleton
import proofs.«128746_j8160437862602_2_alg».proof.Proof.Gen.KernelIdeal.Launch
import proofs.«128746_j8160437862602_2_alg».proof.Proof.Gen.KernelIdeal.Points
import proofs.«128746_j8160437862602_2_alg».proof.Proof.Gen.KernelIdeal.Frame
import proofs.«128746_j8160437862602_2_alg».proof.Proof.Gen.ReferenceIdeal
import proofs.«128746_j8160437862602_2_alg».proof.Proof.Gen.ReferenceIdeal.Run
import proofs.«128746_j8160437862602_2_alg».proof.Proof.Gen.ReferenceIdeal.Read
import proofs.«128746_j8160437862602_2_alg».proof.Proof.Gen.Pre_finite_inputs
import proofs.«128746_j8160437862602_2_alg».proof.Proof.KernelRun
import proofs.«128746_j8160437862602_2_alg».proof.Proof.KernelValue
import proofs.«128746_j8160437862602_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the four arguments, both programs end with the layer of those arguments in their result
    arrays and with the arguments unchanged. -/
theorem algebraic : Cert.algebraic_KernelIdeal_ReferenceIdeal := by
  intro m ρ m' ρ' _ hagree
  refine ⟨fun c => Cert.ReferenceIdeal.RefValue.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(Cert.KernelIdeal.Whole.result_eq m ρ c r h).trans (Cert.KernelIdeal.HostSide.result_layer m ρ c),
        Cert.KernelIdeal.Whole.args_eq m ρ c r h⟩)
      (Cert.KernelIdeal.Whole.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v23_eq, Cert.ReferenceIdeal.RefValue.ref_layer,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
